-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x48 : Shape := ⟨2, ![200000, 48]⟩
abbrev S125x64x64 : Shape := ⟨3, ![125, 64, 64]⟩
abbrev S27x150000 : Shape := ⟨2, ![27, 150000]⟩
abbrev S_ : Shape := ⟨0, ![]⟩

class Facts : Prop where
  bcast_S_S200000x48 : S_.BroadcastsInDim S200000x48 (![] : Fin 0 → Fin S200000x48.rank)
  reducesTo_S200000x48_S_d0_1 : S200000x48.ReducesTo [0, 1] S_
  h_S_ : 0 < S_.numel
  bcast_S_S125x64x64 : S_.BroadcastsInDim S125x64x64 (![] : Fin 0 → Fin S125x64x64.rank)
  reducesTo_S125x64x64_S_d0_1_2 : S125x64x64.ReducesTo [0, 1, 2] S_

variable [Facts]

def fn {F : FTy → Type} [FloatOps F] (main_arg0 : FVec F S200000x48 .f32) (main_arg1 : FVec F S125x64x64 .f32) (main_arg2 : IVec S27x150000 32) (main_arg3 : IVec S27x150000 32) (main_arg4 : IVec S27x150000 1) : IVec S_ 1 :=
  let main_v0 : FVec F S200000x48 .f32 := Host.absf main_arg0
  let main_cst : FVec F S_ .f32 := constant S_ .f32 0x7F800000#32
  let main_v1 : FVec F S200000x48 .f32 := broadcastInDim S200000x48 ![] bcast_S_S200000x48 main_cst
  let main_v2 : IVec S200000x48 1 := cmpf .olt main_v0 main_v1
  let main_c : IVec S_ 1 := constantI S_ 1 1#1
  let main_v3 : IVec S_ 1 := (fun x v => Host.reduce IntOp.andi x v reducesTo_S200000x48_S_d0_1 h_S_) main_v2 main_c
  let main_v4 : FVec F S125x64x64 .f32 := Host.absf main_arg1
  let main_cst_0 : FVec F S_ .f32 := constant S_ .f32 0x7F800000#32
  let main_v5 : FVec F S125x64x64 .f32 := broadcastInDim S125x64x64 ![] bcast_S_S125x64x64 main_cst_0
  let main_v6 : IVec S125x64x64 1 := cmpf .olt main_v4 main_v5
  let main_c_1 : IVec S_ 1 := constantI S_ 1 1#1
  let main_v7 : IVec S_ 1 := (fun x v => Host.reduce IntOp.andi x v reducesTo_S125x64x64_S_d0_1_2 h_S_) main_v6 main_c_1
  let main_v8 : IVec S_ 1 := andi main_v3 main_v7
  main_v8
-- ==== Kernel.lean ====
abbrev S200000x48 : Shape := ⟨2, ![200000, 48]⟩
abbrev S125x64x64 : Shape := ⟨3, ![125, 64, 64]⟩
abbrev S27x150000 : Shape := ⟨2, ![27, 150000]⟩
abbrev S5x5x5x64x64 : Shape := ⟨5, ![5, 5, 5, 64, 64]⟩
abbrev S3x3x3x48x48 : Shape := ⟨5, ![3, 3, 3, 48, 48]⟩
abbrev S27x48x48 : Shape := ⟨3, ![27, 48, 48]⟩
abbrev S27x150000x1 : Shape := ⟨3, ![27, 150000, 1]⟩
abbrev S_ : Shape := ⟨0, ![]⟩
abbrev S27x150000x48 : Shape := ⟨3, ![27, 150000, 48]⟩
abbrev S1x25000x48 : Shape := ⟨3, ![1, 25000, 48]⟩
abbrev S1x48x48 : Shape := ⟨3, ![1, 48, 48]⟩
abbrev S25000x48 : Shape := ⟨2, ![25000, 48]⟩
abbrev S48x48 : Shape := ⟨2, ![48, 48]⟩
abbrev S4050000 : Shape := ⟨1, ![4050000]⟩
abbrev S4050000x48 : Shape := ⟨2, ![4050000, 48]⟩
abbrev S4050000x1 : Shape := ⟨2, ![4050000, 1]⟩

abbrev nBuf : Space → Nat
  | .hbm => 39
  | .vmem => 6
  | .smem => 0
  | _ => 0

abbrev bufTy : (tb : Table) → Fin (tcTables nBuf tb) → BufTy
  | .hbm, ⟨0, _⟩ => ⟨S200000x48, .f32⟩
  | .hbm, ⟨1, _⟩ => ⟨S125x64x64, .f32⟩
  | .hbm, ⟨2, _⟩ => ⟨S27x150000, .i32⟩
  | .hbm, ⟨3, _⟩ => ⟨S27x150000, .i32⟩
  | .hbm, ⟨4, _⟩ => ⟨S27x150000, .i1⟩
  | .hbm, ⟨5, _⟩ => ⟨S5x5x5x64x64, .f32⟩
  | .hbm, ⟨6, _⟩ => ⟨S3x3x3x48x48, .f32⟩
  | .hbm, ⟨7, _⟩ => ⟨S27x48x48, .f32⟩
  | .hbm, ⟨8, _⟩ => ⟨S27x150000x1, .i1⟩
  | .hbm, ⟨9, _⟩ => ⟨S_, .i32⟩
  | .hbm, ⟨10, _⟩ => ⟨S27x150000, .i32⟩
  | .hbm, ⟨11, _⟩ => ⟨S27x150000, .i1⟩
  | .hbm, ⟨12, _⟩ => ⟨S_, .i32⟩
  | .hbm, ⟨13, _⟩ => ⟨S27x150000, .i32⟩
  | .hbm, ⟨14, _⟩ => ⟨S27x150000, .i32⟩
  | .hbm, ⟨15, _⟩ => ⟨S27x150000, .i32⟩
  | .hbm, ⟨16, _⟩ => ⟨S27x150000x1, .i32⟩
  | .hbm, ⟨17, _⟩ => ⟨S27x150000x48, .f32⟩
  | .hbm, ⟨18, _⟩ => ⟨S_, .f32⟩
  | .hbm, ⟨19, _⟩ => ⟨S_, .f32⟩
  | .hbm, ⟨20, _⟩ => ⟨S27x150000x48, .i1⟩
  | .hbm, ⟨21, _⟩ => ⟨S27x150000x48, .f32⟩
  | .hbm, ⟨22, _⟩ => ⟨S27x150000x48, .f32⟩
  | .hbm, ⟨23, _⟩ => ⟨S27x150000x48, .bf16⟩
  | .hbm, ⟨24, _⟩ => ⟨S27x48x48, .bf16⟩
  | .hbm, ⟨25, _⟩ => ⟨S27x150000x48, .f32⟩
  | .hbm, ⟨26, _⟩ => ⟨S_, .f32⟩
  | .hbm, ⟨27, _⟩ => ⟨S200000x48, .f32⟩
  | .hbm, ⟨28, _⟩ => ⟨S4050000, .i32⟩
  | .hbm, ⟨29, _⟩ => ⟨S4050000x48, .f32⟩
  | .hbm, ⟨30, _⟩ => ⟨S_, .i32⟩
  | .hbm, ⟨31, _⟩ => ⟨S4050000, .i32⟩
  | .hbm, ⟨32, _⟩ => ⟨S4050000, .i1⟩
  | .hbm, ⟨33, _⟩ => ⟨S_, .i32⟩
  | .hbm, ⟨34, _⟩ => ⟨S4050000, .i32⟩
  | .hbm, ⟨35, _⟩ => ⟨S4050000, .i32⟩
  | .hbm, ⟨36, _⟩ => ⟨S4050000, .i32⟩
  | .hbm, ⟨37, _⟩ => ⟨S4050000x1, .i32⟩
  | .hbm, ⟨38, _⟩ => ⟨S200000x48, .f32⟩
  | .local _ .vmem, ⟨0, _⟩ => ⟨S1x25000x48, .bf16⟩
  | .local _ .vmem, ⟨1, _⟩ => ⟨S1x25000x48, .bf16⟩
  | .local _ .vmem, ⟨2, _⟩ => ⟨S1x48x48, .bf16⟩
  | .local _ .vmem, ⟨3, _⟩ => ⟨S1x48x48, .bf16⟩
  | .local _ .vmem, ⟨4, _⟩ => ⟨S1x25000x48, .f32⟩
  | .local _ .vmem, ⟨5, _⟩ => ⟨S1x25000x48, .f32⟩
  | _, _ => ⟨S200000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![27, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x25000x48 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x48x48 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x25000x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S125x64x64_S5x5x5x64x64 : S125x64x64.ShapeCasts S5x5x5x64x64
  slices_S5x5x5x64x64_S3x3x3x48x48_1_1_1_0_0 : S5x5x5x64x64.Slices ![1, 1, 1, 0, 0] S3x3x3x48x48
  shapeCasts_S3x3x3x48x48_S27x48x48 : S3x3x3x48x48.ShapeCasts S27x48x48
  bcast_S27x150000_S27x150000x1_0_1 : S27x150000.BroadcastsInDim S27x150000x1 (![0, 1] : Fin 2 → Fin S27x150000x1.rank)
  bcast_S_S27x150000 : S_.BroadcastsInDim S27x150000 (![] : Fin 0 → Fin S27x150000.rank)
  bcast_S27x150000x1_S27x150000x48_0_1_2 : S27x150000x1.BroadcastsInDim S27x150000x48 (![0, 1, 2] : Fin 3 → Fin S27x150000x48.rank)
  bcast_S_S27x150000x48 : S_.BroadcastsInDim S27x150000x48 (![] : Fin 0 → Fin S27x150000x48.rank)
  bitsLt_bf16_f32 : FTy.bits .bf16 < FTy.bits .f32
  inb_S1x25000x48_S1x25000x48_0_0_0 : ∀ a, (![0, 0, 0] : Fin 3 → Nat) a + S1x25000x48.size a ≤ S1x25000x48.size a
  h_S1x25000x48 : 0 < S1x25000x48.numel
  shapeCasts_S1x25000x48_S25000x48 : S1x25000x48.ShapeCasts S25000x48
  inb_S1x48x48_S1x48x48_0_0_0 : ∀ a, (![0, 0, 0] : Fin 3 → Nat) a + S1x48x48.size a ≤ S1x48x48.size a
  h_S1x48x48 : 0 < S1x48x48.numel
  shapeCasts_S1x48x48_S48x48 : S1x48x48.ShapeCasts S48x48
  shapeCasts_S25000x48_S1x25000x48 : S25000x48.ShapeCasts S1x25000x48
  bcast_S_S200000x48 : S_.BroadcastsInDim S200000x48 (![] : Fin 0 → Fin S200000x48.rank)
  shapeCasts_S27x150000_S4050000 : S27x150000.ShapeCasts S4050000
  shapeCasts_S27x150000x48_S4050000x48 : S27x150000x48.ShapeCasts S4050000x48
  bcast_S_S4050000 : S_.BroadcastsInDim S4050000 (![] : Fin 0 → Fin S4050000.rank)
  bcast_S4050000_S4050000x1_0 : S4050000.BroadcastsInDim S4050000x1 (![0] : Fin 1 → Fin S4050000x1.rank)
  gather_S200000x48_S27x150000x1_S27x150000x48_2_0_n_n_0_2_148_wf : GatherDims.WF S200000x48 S27x150000x1 S27x150000x48 [2] [0] [] [0] [] 2 ![1, 48]
  dot_S25000x48_S48x48_S25000x48_1_0_0_1_n_n_wf : DotDims.WF S25000x48 S48x48 S25000x48 [1] [0] [0] [1] [] []
  scatter_S200000x48_S4050000x1_S4050000x48_1_0_0_1_wf : ScatterDims.WF S200000x48 S4050000x1 S4050000x48 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x25000x48.size a ≤ S27x150000x48.size a
  hwx0_0 : ∀ i : grid0.Coords, EltTy.bits .bf16 = 32 ∨ (Rect.block (s := S27x150000x48) S1x25000x48.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x48x48.size a ≤ S27x48x48.size a
  hwx0_1 : ∀ i : grid0.Coords, EltTy.bits .bf16 = 32 ∨ (Rect.block (s := S27x48x48) S1x48x48.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x25000x48.size a ≤ S27x150000x48.size a
  hwx0_2 : ∀ i : grid0.Coords, EltTy.bits .f32 = 32 ∨ (Rect.block (s := S27x150000x48) S1x25000x48.size (cc0_transform_2 i) (hinb0_2 i)).WholeWords (EltTy.packing .f32)

variable [Facts₀]

def gather_S200000x48_S27x150000x1_S27x150000x48_2_0_n_n_0_2_148 : GatherDims S200000x48 S27x150000x1 S27x150000x48 where
  offsetDims := [2]
  collapsedSliceDims := [0]
  operandBatchingDims := []
  startIndicesBatchingDims := []
  startIndexMap := [0]
  indexVectorDim := 2
  sliceSizes := ![1, 48]
  wf := gather_S200000x48_S27x150000x1_S27x150000x48_2_0_n_n_0_2_148_wf
def dot_S25000x48_S48x48_S25000x48_1_0_0_1_n_n : DotDims S25000x48 S48x48 S25000x48 where
  lhsContracting := [1]
  rhsContracting := [0]
  lhsNonContracting := [0]
  rhsNonContracting := [1]
  lhsBatch := []
  rhsBatch := []
  wf := dot_S25000x48_S48x48_S25000x48_1_0_0_1_n_n_wf
def scatter_S200000x48_S4050000x1_S4050000x48_1_0_0_1 : ScatterDims S200000x48 S4050000x1 S4050000x48 where
  updateWindowDims := [1]
  insertedWindowDims := [0]
  scatterDimsToOperandDims := [0]
  indexVectorDim := 1
  wf := scatter_S200000x48_S4050000x1_S4050000x48_1_0_0_1_wf

abbrev win0_0 : Pipeline.Window sig grid0 :=
  Pipeline.Window.ofSpec (Memref.whole main_v12) S1x25000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x48x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x25000x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S200000x48 : Shape := ⟨2, ![200000, 48]⟩
abbrev S125x64x64 : Shape := ⟨3, ![125, 64, 64]⟩
abbrev S27x150000 : Shape := ⟨2, ![27, 150000]⟩
abbrev S5x5x5x64x64 : Shape := ⟨5, ![5, 5, 5, 64, 64]⟩
abbrev S3x3x3x48x48 : Shape := ⟨5, ![3, 3, 3, 48, 48]⟩
abbrev S27x48x48 : Shape := ⟨3, ![27, 48, 48]⟩
abbrev S27x150000x1 : Shape := ⟨3, ![27, 150000, 1]⟩
abbrev S_ : Shape := ⟨0, ![]⟩
abbrev S27x150000x48 : Shape := ⟨3, ![27, 150000, 48]⟩
abbrev S4050000 : Shape := ⟨1, ![4050000]⟩
abbrev S4050000x48 : Shape := ⟨2, ![4050000, 48]⟩
abbrev S4050000x1 : Shape := ⟨2, ![4050000, 1]⟩

abbrev nBuf : Space → Nat
  | .hbm => 37
  | .vmem => 0
  | .smem => 0
  | _ => 0

abbrev bufTy : (tb : Table) → Fin (tcTables nBuf tb) → BufTy
  | .hbm, ⟨0, _⟩ => ⟨S200000x48, .f32⟩
  | .hbm, ⟨1, _⟩ => ⟨S125x64x64, .f32⟩
  | .hbm, ⟨2, _⟩ => ⟨S27x150000, .i32⟩
  | .hbm, ⟨3, _⟩ => ⟨S27x150000, .i32⟩
  | .hbm, ⟨4, _⟩ => ⟨S27x150000, .i1⟩
  | .hbm, ⟨5, _⟩ => ⟨S5x5x5x64x64, .f32⟩
  | .hbm, ⟨6, _⟩ => ⟨S3x3x3x48x48, .f32⟩
  | .hbm, ⟨7, _⟩ => ⟨S27x48x48, .f32⟩
  | .hbm, ⟨8, _⟩ => ⟨S27x150000x1, .i1⟩
  | .hbm, ⟨9, _⟩ => ⟨S_, .i32⟩
  | .hbm, ⟨10, _⟩ => ⟨S27x150000, .i32⟩
  | .hbm, ⟨11, _⟩ => ⟨S27x150000, .i1⟩
  | .hbm, ⟨12, _⟩ => ⟨S_, .i32⟩
  | .hbm, ⟨13, _⟩ => ⟨S27x150000, .i32⟩
  | .hbm, ⟨14, _⟩ => ⟨S27x150000, .i32⟩
  | .hbm, ⟨15, _⟩ => ⟨S27x150000, .i32⟩
  | .hbm, ⟨16, _⟩ => ⟨S27x150000x1, .i32⟩
  | .hbm, ⟨17, _⟩ => ⟨S27x150000x48, .f32⟩
  | .hbm, ⟨18, _⟩ => ⟨S_, .f32⟩
  | .hbm, ⟨19, _⟩ => ⟨S_, .f32⟩
  | .hbm, ⟨20, _⟩ => ⟨S27x150000x48, .i1⟩
  | .hbm, ⟨21, _⟩ => ⟨S27x150000x48, .f32⟩
  | .hbm, ⟨22, _⟩ => ⟨S27x150000x48, .f32⟩
  | .hbm, ⟨23, _⟩ => ⟨S27x150000x48, .f32⟩
  | .hbm, ⟨24, _⟩ => ⟨S_, .f32⟩
  | .hbm, ⟨25, _⟩ => ⟨S200000x48, .f32⟩
  | .hbm, ⟨26, _⟩ => ⟨S4050000, .i32⟩
  | .hbm, ⟨27, _⟩ => ⟨S4050000x48, .f32⟩
  | .hbm, ⟨28, _⟩ => ⟨S_, .i32⟩
  | .hbm, ⟨29, _⟩ => ⟨S4050000, .i32⟩
  | .hbm, ⟨30, _⟩ => ⟨S4050000, .i1⟩
  | .hbm, ⟨31, _⟩ => ⟨S_, .i32⟩
  | .hbm, ⟨32, _⟩ => ⟨S4050000, .i32⟩
  | .hbm, ⟨33, _⟩ => ⟨S4050000, .i32⟩
  | .hbm, ⟨34, _⟩ => ⟨S4050000, .i32⟩
  | .hbm, ⟨35, _⟩ => ⟨S4050000x1, .i32⟩
  | .hbm, ⟨36, _⟩ => ⟨S200000x48, .f32⟩
  | _, _ => ⟨S200000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  shapeCasts_S125x64x64_S5x5x5x64x64 : S125x64x64.ShapeCasts S5x5x5x64x64
  slices_S5x5x5x64x64_S3x3x3x48x48_1_1_1_0_0 : S5x5x5x64x64.Slices ![1, 1, 1, 0, 0] S3x3x3x48x48
  shapeCasts_S3x3x3x48x48_S27x48x48 : S3x3x3x48x48.ShapeCasts S27x48x48
  bcast_S27x150000_S27x150000x1_0_1 : S27x150000.BroadcastsInDim S27x150000x1 (![0, 1] : Fin 2 → Fin S27x150000x1.rank)
  bcast_S_S27x150000 : S_.BroadcastsInDim S27x150000 (![] : Fin 0 → Fin S27x150000.rank)
  bcast_S27x150000x1_S27x150000x48_0_1_2 : S27x150000x1.BroadcastsInDim S27x150000x48 (![0, 1, 2] : Fin 3 → Fin S27x150000x48.rank)
  bcast_S_S27x150000x48 : S_.BroadcastsInDim S27x150000x48 (![] : Fin 0 → Fin S27x150000x48.rank)
  bcast_S_S200000x48 : S_.BroadcastsInDim S200000x48 (![] : Fin 0 → Fin S200000x48.rank)
  shapeCasts_S27x150000_S4050000 : S27x150000.ShapeCasts S4050000
  shapeCasts_S27x150000x48_S4050000x48 : S27x150000x48.ShapeCasts S4050000x48
  bcast_S_S4050000 : S_.BroadcastsInDim S4050000 (![] : Fin 0 → Fin S4050000.rank)
  bcast_S4050000_S4050000x1_0 : S4050000.BroadcastsInDim S4050000x1 (![0] : Fin 1 → Fin S4050000x1.rank)
  gather_S200000x48_S27x150000x1_S27x150000x48_2_0_n_n_0_2_148_wf : GatherDims.WF S200000x48 S27x150000x1 S27x150000x48 [2] [0] [] [0] [] 2 ![1, 48]
  dot_S27x150000x48_S27x48x48_S27x150000x48_2_1_1_2_0_0_wf : DotDims.WF S27x150000x48 S27x48x48 S27x150000x48 [2] [1] [1] [2] [0] [0]
  scatter_S200000x48_S4050000x1_S4050000x48_1_0_0_1_wf : ScatterDims.WF S200000x48 S4050000x1 S4050000x48 [1] [0] [0] 1

variable [Facts₀]

def gather_S200000x48_S27x150000x1_S27x150000x48_2_0_n_n_0_2_148 : GatherDims S200000x48 S27x150000x1 S27x150000x48 where
  offsetDims := [2]
  collapsedSliceDims := [0]
  operandBatchingDims := []
  startIndicesBatchingDims := []
  startIndexMap := [0]
  indexVectorDim := 2
  sliceSizes := ![1, 48]
  wf := gather_S200000x48_S27x150000x1_S27x150000x48_2_0_n_n_0_2_148_wf
def dot_S27x150000x48_S27x48x48_S27x150000x48_2_1_1_2_0_0 : DotDims S27x150000x48 S27x48x48 S27x150000x48 where
  lhsContracting := [2]
  rhsContracting := [1]
  lhsNonContracting := [1]
  rhsNonContracting := [2]
  lhsBatch := [0]
  rhsBatch := [0]
  wf := dot_S27x150000x48_S27x48x48_S27x150000x48_2_1_1_2_0_0_wf
def scatter_S200000x48_S4050000x1_S4050000x48_1_0_0_1 : ScatterDims S200000x48 S4050000x1 S4050000x48 where
  updateWindowDims := [1]
  insertedWindowDims := [0]
  scatterDimsToOperandDims := [0]
  indexVectorDim := 1
  wf := scatter_S200000x48_S4050000x1_S4050000x48_1_0_0_1_wf

class Facts : Prop extends Facts₀ where

variable [Facts]
-- ==== Proof.LibPlainDot.lean ====
/-
  Two general facts about sums, used wherever a matrix product is read entry by entry.

  * A product of an [a, K] matrix with a [K, b] matrix on the matrix unit, accumulated into the zero array, has at
    entry (p, q) the value  ∑ k < K, lhs (p, k) · rhs (k, q)  on the extended reals. The dimension numbers enter only
    through four facts about where the contraction reads its operands, each of which is decided by unfolding for a
    literal record: it contracts the left operand's axis 1 with the right operand's axis 0, and carries the output's
    row to the left operand and the output's column to the right one.
  * A sum over  n = a + b + c  consecutive positions is the sum over the first a, plus the sum over the next b, plus
    the sum over the last c. This holds in any commutative monoid, so on the extended reals it needs no finiteness:
    only the order and grouping of the terms change.
-/
import Idealize.ShloMosaic.PureOps.Ideal.Laws
import Idealize.ShloMosaic.Lib.ValueIdx

noncomputable section

namespace Idealize.ShloMosaic.PlainDot

open Idealize.ShloMosaic Idealize.ShloMosaic.ValueIdx

/-- A sum over `a + b + c` consecutive positions, cut into its three consecutive bands. -/
theorem sum_three_bands {M : Type} [AddCommMonoid M] {a b c n : ℕ} (hn : a + b + c = n) (f : Fin n → M) :
    ∑ k : Fin n, f k
      = (∑ k : Fin a, f ⟨k.val, by omega⟩) + (∑ k : Fin b, f ⟨a + k.val, by omega⟩)
        + ∑ k : Fin c, f ⟨a + b + k.val, by omega⟩ := by
  subst hn
  rw [Fin.sum_univ_add, Fin.sum_univ_add]
  rfl

/-- Entry (p, q) of an [a, K] × [K, b] product into the zero accumulator is the sum over the contracted position
    of the row's entry times the column's entry. -/
theorem matmul_zero_ix2 {a K b : ℕ} {φ₁ φ₂ : FTy}
    (d : DotDims (⟨2, ![a, K]⟩ : Shape) (⟨2, ![K, b]⟩ : Shape) (⟨2, ![a, b]⟩ : Shape))
    (hr : d.contr.rank = 1) (hs : d.contr.size ⟨0, by omega⟩ = K)
    (hlc : d.lhsContracting = [1]) (hrc : d.rhsContracting = [0])
    (hl0 : ∀ (j : (⟨2, ![a, b]⟩ : Shape).Idx) (q : d.contr.Idx), (d.lhsIdx j q 0).val = (j 0).val)
    (hr1 : ∀ (j : (⟨2, ![a, b]⟩ : Shape).Idx) (q : d.contr.Idx), (d.rhsIdx j q 1).val = (j 1).val)
    (prec : Option ContractPrecision)
    (lhs : FVec Ideal (⟨2, ![a, K]⟩ : Shape) φ₁) (rhs : FVec Ideal (⟨2, ![K, b]⟩ : Shape) φ₂) (p : Fin a) (q : Fin b) :
    FloatOps.matmul d prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun ax => Fin.ext (by
    match ax with
    | ⟨0, _⟩ => exact hl0 _ _
    | ⟨1, _⟩ => exact (d.lhsIdx_val_of_single hlc _ _).trans hk)
  have er : d.rhsIdx (ix2 p q) ((contrEquiv1 d K hr hs).symm k) = ix2 k q := funext fun ax => Fin.ext (by
    match ax with
    | ⟨0, _⟩ => exact (d.rhsIdx_val_of_single hrc _ _).trans hk
    | ⟨1, _⟩ => exact hr1 _ _)
  rw [el, er]

end Idealize.ShloMosaic.PlainDot

end
-- ==== Proof.Tile.lean ====
/-
  One grid point of the batched product.

  At grid point (k, b) the body loads a [1, 25000, 48] tile of the left operand (batch k, rows 25000·b … 25000·b + 24999)
  and the [1, 48, 48] slab of the right operand for batch k, drops the unit axis of each, multiplies the two matrices
  into a zero accumulator, and stores the [25000, 48] product back as a [1, 25000, 48] tile. So the tile the body
  leaves has, at (0, r, o), the value  ∑ i < 48, left (0, r, i) · right (0, i, o)  on the extended reals: the unit axes
  only relabel positions (same row-major position before and after), and a product into zero is the plain sum.
-/
import proofs.«146788_j21517786153336_2_alg».proof.Proof.Gen.KernelIdeal.Frame
import proofs.«146788_j21517786153336_2_alg».proof.Proof.LibPlainDot
import Idealize.ShloMosaic.Lib.Pipeline.Value
import Idealize.ShloMosaic.Lib.ValueIdx
import Idealize.ShloMosaic.PureOps.Ideal.Laws

noncomputable section

namespace Cert.KernelIdeal.Tile

open Idealize.ShloMosaic Idealize.ShloMosaic.ValueIdx Cert.KernelIdeal Cert.KernelIdeal.Gen

/-- The zero offsets of a whole-tile access, as the constant function. -/
theorem zeros3 : (![0, 0, 0] : Fin 3 → Nat) = fun _ => 0 := funext fun a => by fin_cases a <;> rfl

/-- The body's one store covers the whole output tile and its two loads read the whole input tiles, so the tile it
    leaves is its payload of the two input tiles. -/
theorem out_eq_payload (x0 : Vec Ideal S1x25000x48 .bf16) (x1 : Vec Ideal S1x48x48 .bf16) :
    out0_2 x0 x1 = k0_pay1 x0 x1 := by
  unfold out0_2
  rw [View.canon_unit_zero zeros3]
  simp only [View.ld_unit_zero (S := S1x25000x48) zeros3, View.ld_unit_zero (S := S1x48x48) zeros3]

/-- The matrix product's left operand index keeps the output row. -/
theorem dot_lhs_row (j : S25000x48.Idx) (q : dot_S25000x48_S48x48_S25000x48_1_0_0_1_n_n.contr.Idx) :
    (dot_S25000x48_S48x48_S25000x48_1_0_0_1_n_n.lhsIdx j q 0).val = (j 0).val := by
  unfold DotDims.lhsIdx
  rw [dif_neg (show ¬(0 : Fin S25000x48.rank) ∈ dot_S25000x48_S48x48_S25000x48_1_0_0_1_n_n.lhsBatch by decide),
    dif_pos (show (0 : Fin S25000x48.rank) ∈ dot_S25000x48_S48x48_S25000x48_1_0_0_1_n_n.lhsNonContracting by decide)]
  rfl

/-- The matrix product's right operand index keeps the output column. -/
theorem dot_rhs_col (j : S25000x48.Idx) (q : dot_S25000x48_S48x48_S25000x48_1_0_0_1_n_n.contr.Idx) :
    (dot_S25000x48_S48x48_S25000x48_1_0_0_1_n_n.rhsIdx j q 1).val = (j 1).val := by
  unfold DotDims.rhsIdx
  rw [dif_neg (show ¬(1 : Fin S48x48.rank) ∈ dot_S25000x48_S48x48_S25000x48_1_0_0_1_n_n.rhsBatch by decide),
    dif_pos (show (1 : Fin S48x48.rank) ∈ dot_S25000x48_S48x48_S25000x48_1_0_0_1_n_n.rhsNonContracting by decide)]
  rfl

/-- The payload at (z, r, o): the sum over the 48 contracted positions of the left tile's row r times the right
    slab's column o. -/
theorem payload_apply (x0 : Vec Ideal S1x25000x48 .bf16) (x1 : Vec Ideal S1x48x48 .bf16)
    (z : Fin 1) (r : Fin 25000) (o : Fin 48) :
    k0_pay1 x0 x1 (ix3 z r o) = ∑ i : Fin 48, x0 (ix3 (0 : Fin 1) r i) * x1 (ix3 (0 : Fin 1) i o) := by
  unfold k0_pay1
  refine (shapeCast_apply _ shapeCasts_S25000x48_S1x25000x48 (ix3 z r o) (ix2 r o) ?_).trans ?_
  · rw [Shape.rowMajor_val_two, Shape.rowMajor_val_three]
    have hz : z.val = 0 := by omega
    show r.val * 48 + o.val = (z.val * 25000 + r.val) * 48 + o.val
    rw [hz]; omega
  refine (PlainDot.matmul_zero_ix2 dot_S25000x48_S48x48_S25000x48_1_0_0_1_n_n rfl rfl rfl rfl dot_lhs_row dot_rhs_col
    none _ _ r o).trans ?_
  refine Finset.sum_congr rfl fun i _ => ?_
  have e0 : shapeCast S25000x48 x0 shapeCasts_S1x25000x48_S25000x48 (ix2 r i) = x0 (ix3 (0 : Fin 1) r i) :=
    shapeCast_apply x0 shapeCasts_S1x25000x48_S25000x48 (ix2 r i) (ix3 (0 : Fin 1) r i) (by
      rw [Shape.rowMajor_val_two, Shape.rowMajor_val_three]
      show (0 * 25000 + r.val) * 48 + i.val = r.val * 48 + i.val
      omega)
  have e1 : shapeCast S48x48 x1 shapeCasts_S1x48x48_S48x48 (ix2 i o) = x1 (ix3 (0 : Fin 1) i o) :=
    shapeCast_apply x1 shapeCasts_S1x48x48_S48x48 (ix2 i o) (ix3 (0 : Fin 1) i o) (by
      rw [Shape.rowMajor_val_two, Shape.rowMajor_val_three]
      show (0 * 48 + i.val) * 48 + o.val = i.val * 48 + o.val
      omega)
  rw [e0, e1]

/-- The tile the body leaves, entry by entry. -/
theorem out_apply (x0 : Vec Ideal S1x25000x48 .bf16) (x1 : Vec Ideal S1x48x48 .bf16) (y : S1x25000x48.Idx) :
    out0_2 x0 x1 y = ∑ i : Fin 48, x0 (ix3 (0 : Fin 1) (y 1) i) * x1 (ix3 (0 : Fin 1) i (y 2)) := by
  rw [out_eq_payload]
  conv_lhs => rw [eq_ix3 y]
  exact payload_apply x0 x1 (y 0) (y 1) (y 2)

end Cert.KernelIdeal.Tile

end
-- ==== Proof.Spec.lean ====
/-
  The function both programs compute before the scatter: a batched matrix product.

  For a left array  l : [27, 150000, 48]  and a right array  r : [27, 48, 48]  of extended reals,

      batched l r (k, m, o) = ∑ i < 48, l (k, m, i) · r (k, i, o).

  The kernel computes it tile by tile on the matrix unit (27 × 6 tiles of 25000 rows, each a product into a zero
  accumulator); the reference computes it as one contraction with a batch axis. Both are this one sum over the 48
  contracted positions, term for term, so neither finiteness nor any rearrangement of the sum is needed.
-/
import Idealize.ShloMosaic.PureOps.Ideal
import Idealize.ShloMosaic.Lib.ValueIdx

noncomputable section

namespace Cert.BatchedProduct

open Idealize.ShloMosaic Idealize.ShloMosaic.ValueIdx

/-- The batched product of a [27, 150000, 48] array with a [27, 48, 48] array, entry by entry. -/
def batched (l : (⟨3, ![27, 150000, 48]⟩ : Shape).Idx → EReal) (r : (⟨3, ![27, 48, 48]⟩ : Shape).Idx → EReal) :
    (⟨3, ![27, 150000, 48]⟩ : Shape).Idx → EReal :=
  fun j => ∑ i : Fin 48, l (ix3 (j 0) (j 1) i) * r (ix3 (j 0) i (j 2))

theorem batched_apply (l : (⟨3, ![27, 150000, 48]⟩ : Shape).Idx → EReal) (r : (⟨3, ![27, 48, 48]⟩ : Shape).Idx → EReal)
    (j : (⟨3, ![27, 150000, 48]⟩ : Shape).Idx) :
    batched l r j = ∑ i : Fin 48, l (ix3 (j 0) (j 1) i) * r (ix3 (j 0) i (j 2)) := rfl

end Cert.BatchedProduct

end
-- ==== Proof.Blocks.lean ====
/-
  From tiles to the whole array.

  The grid has 27 × 6 points; point t is batch  t / 6  and row block  t % 6. There the left window's tile is rows
  25000·(t % 6) … of batch t / 6, the right window's tile is the whole [48, 48] slab of batch t / 6, and the output
  window's tile is rows 25000·(t % 6) … of batch t / 6 of the result. Reading the body's tile (a sum over the 48
  contracted positions of left-tile row times right-slab column) through these positions shows that what point t
  writes back is exactly tile t of the batched product of the two whole operand arrays. Every position (k, m, o) of
  the result lies in the tile of the point  6·k + m / 25000, so the tiles cover the array and after the last point
  the result array is the batched product.
-/
import proofs.«146788_j21517786153336_2_alg».proof.Proof.Tile
import proofs.«146788_j21517786153336_2_alg».proof.Proof.Spec
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.BatchedProduct

variable (m : (ℓ : Loc nD τ sig) → Buf (Elt Ideal) ℓ)

/-- Where each window's tile sits at point t, decided over the 162 points: batch t / 6 on the leading axis; row
    block t % 6 for the left operand and the result, block 0 for the right operand; block 0 on the last axis. -/
theorem tile_positions : ∀ t : Fin cfg0.N,
    win0_0.index t (0 : Fin 3) = t.val / 6 ∧ win0_0.index t (1 : Fin 3) = t.val % 6 ∧ win0_0.index t (2 : Fin 3) = 0
    ∧ win0_1.index t (0 : Fin 3) = t.val / 6 ∧ win0_1.index t (1 : Fin 3) = 0 ∧ win0_1.index t (2 : Fin 3) = 0
    ∧ win0_2.index t (0 : Fin 3) = t.val / 6 ∧ win0_2.index t (1 : Fin 3) = t.val % 6 ∧ win0_2.index t (2 : Fin 3) = 0 :=
  (by decide +kernel : ∀ t : Fin grid0.N, _)

/-- The tile sum read through the windows' positions: for any two operand arrays, summing the left array over the
    left window's tile row and the right array over the right window's slab column gives the batched product at the
    position the output window's tile places the entry. -/
theorem tile_sum (A : S27x150000x48.Idx → EReal) (B : S27x48x48.Idx → EReal) (t : Fin cfg0.N) (y : S1x25000x48.Idx) :
    ∑ i : Fin 48, A (((cfg0.win 0).blk t).view.emb (ix3 (0 : Fin 1) (y 1) i))
        * B (((cfg0.win 1).blk t).view.emb (ix3 (0 : Fin 1) i (y 2)))
      = batched A B (((cfg0.win 2).blk t).view.emb y) := by
  obtain ⟨a0, a1, a2, b0, b1, b2, c0, c1, c2⟩ := tile_positions t
  rw [batched_apply]
  refine Finset.sum_congr rfl fun i _ => ?_
  have hy0 : (y 0).val < 1 := (y 0).isLt
  have hy1 : (y 1).val < 25000 := (y 1).isLt
  have hy2 : (y 2).val < 48 := (y 2).isLt
  have h0 : ((cfg0.win 0).blk t).view.emb (ix3 (0 : Fin 1) (y 1) i)
      = ix3 ((((cfg0.win 2).blk t).view.emb y) 0) ((((cfg0.win 2).blk t).view.emb y) 1) i := by
    funext a; apply Fin.ext
    match a with
    | ⟨0, _⟩ => show win0_0.index t (0 : Fin 3) * 1 + 1 * 0 = win0_2.index t (0 : Fin 3) * 1 + 1 * (y 0).val; omega
    | ⟨1, _⟩ => show win0_0.index t (1 : Fin 3) * 25000 + 1 * (y 1).val = win0_2.index t (1 : Fin 3) * 25000 + 1 * (y 1).val; omega
    | ⟨2, _⟩ => show win0_0.index t (2 : Fin 3) * 48 + 1 * i.val = i.val; omega
  have h1 : ((cfg0.win 1).blk t).view.emb (ix3 (0 : Fin 1) i (y 2))
      = ix3 ((((cfg0.win 2).blk t).view.emb y) 0) i ((((cfg0.win 2).blk t).view.emb y) 2) := by
    funext a; apply Fin.ext
    match a with
    | ⟨0, _⟩ => show win0_1.index t (0 : Fin 3) * 1 + 1 * 0 = win0_2.index t (0 : Fin 3) * 1 + 1 * (y 0).val; omega
    | ⟨1, _⟩ => show win0_1.index t (1 : Fin 3) * 48 + 1 * i.val = i.val; omega
    | ⟨2, _⟩ => show win0_1.index t (2 : Fin 3) * 48 + 1 * (y 2).val = win0_2.index t (2 : Fin 3) * 48 + 1 * (y 2).val; omega
  rw [h0, h1]
  rfl

/-- What point t writes back is tile t of the batched product of the two operand arrays as the region finds them. -/
theorem flushed_eq (c : Dev nD) (t : Fin cfg0.N) :
    (dats m 0 c).flushed 2 t
      = ((cfg0.win 2).blk t).view.read (Elt Ideal) (batched (V m c main_v12) (V m c main_v13)) := by
  show (cfg0.win 2).cut (grid0.coords t) ((dats m 0 c).after 2 t) = _
  rw [after0_2]
  funext y
  refine (Tile.out_apply (iblk m c 0 t) (iblk m c 1 t) y).trans ?_
  exact tile_sum (V m c main_v12) (V m c main_v13) t y

/-- A position of the result array is in point t's tile iff each coordinate is in the tile's range on its axis. -/
theorem mem_tile (t : Fin cfg0.N) (j : S27x150000x48.Idx) :
    j ∈ ((cfg0.win 2).blk t).view.set ↔ ∀ a : Fin 3, win0_2.index t a * S1x25000x48.size a ≤ (j a).val
      ∧ (j a).val < win0_2.index t a * S1x25000x48.size a + S1x25000x48.size a := by
  show j ∈ ((View.whole main_v14).slice (win0_2.rect t)).set ↔ _
  rw [View.set_slice_whole, Rect.mem_set_unit]
  exact Iff.rfl

/-- Every position (k, m, o) of the result is in the tile of the point 6·k + m / 25000, which writes back. -/
theorem tiles_cover (j : S27x150000x48.Idx) :
    ∃ t : Fin cfg0.N, (cfg0.win 2).flush t = true ∧ j ∈ ((cfg0.win 2).blk t).view.set := by
  have hj0 : (j 0).val < 27 := (j 0).isLt
  have hj1 : (j 1).val < 150000 := (j 1).isLt
  have hj2 : (j 2).val < 48 := (j 2).isLt
  have hN : (j 0).val * 6 + (j 1).val / 25000 < cfg0.N := by
    show (j 0).val * 6 + (j 1).val / 25000 < grid0.N
    rw [N_0]; omega
  refine ⟨⟨(j 0).val * 6 + (j 1).val / 25000, hN⟩, flush0_2 _, ?_⟩
  obtain ⟨-, -, -, -, -, -, c0, c1, c2⟩ := tile_positions ⟨(j 0).val * 6 + (j 1).val / 25000, hN⟩
  rw [mem_tile]
  intro a
  match a with
  | ⟨0, _⟩ =>
    show win0_2.index _ (0 : Fin 3) * 1 ≤ (j 0).val ∧ (j 0).val < win0_2.index _ (0 : Fin 3) * 1 + 1
    rw [c0]; show ((j 0).val * 6 + (j 1).val / 25000) / 6 * 1 ≤ (j 0).val ∧ (j 0).val < ((j 0).val * 6 + (j 1).val / 25000) / 6 * 1 + 1
    omega
  | ⟨1, _⟩ =>
    show win0_2.index _ (1 : Fin 3) * 25000 ≤ (j 1).val ∧ (j 1).val < win0_2.index _ (1 : Fin 3) * 25000 + 25000
    rw [c1]; show ((j 0).val * 6 + (j 1).val / 25000) % 6 * 25000 ≤ (j 1).val ∧ (j 1).val < ((j 0).val * 6 + (j 1).val / 25000) % 6 * 25000 + 25000
    omega
  | ⟨2, _⟩ =>
    show win0_2.index _ (2 : Fin 3) * 48 ≤ (j 2).val ∧ (j 2).val < win0_2.index _ (2 : Fin 3) * 48 + 48
    rw [c2]; omega

/-- After the last point the result array is the batched product of the two operand arrays as the region finds them. -/
theorem result_array (c : Dev nD) :
    (dats m 0 c).arrAt 2 cfg0.N = batched (V m c main_v12) (V m c main_v13) :=
  (dats m 0 c).arrAt_eq_of_cover 2 _ (fun t _ => flushed_eq m c t) tiles_cover

end Cert.KernelIdeal.Blocks

end
-- ==== Proof.KernelRun.lean ====
/-
  The kernel's whole run, read as one value.

  Before the region the program builds the two operands of the batched product from the arguments:
    * the weights: the [125, 64, 64] argument viewed [5, 5, 5, 64, 64], its centre [3, 3, 3, 48, 48] box taken and
      viewed [27, 48, 48];
    * the gathered rows: row  in_idx (k, m)  of the features (a negative index first wrapped by adding 200000),
      kept where the mask is set and replaced by zero elsewhere;
  each then converted to the narrower float format, which on the extended reals changes nothing. The region
  (module Blocks) leaves the batched product of the two in its result array. After the region the program adds row
  (k, m) of that product into row  out_idx (k, m)  (wrapped likewise) of a zero array.

  So the program's result is  scattered out_idx (batched (gathered features in_idx mask) (weights kernel)),
  where gathered, weights and scattered name the three host-side chains. They are kept as names: the reference applies
  the very same chains, and nothing below needs to look inside a gather or a scatter.
-/
import proofs.«146788_j21517786153336_2_alg».proof.Proof.Blocks
import Idealize.ShloMosaic.Lib.StableHlo.Run

set_option maxRecDepth 16384

noncomputable section

namespace Cert.KernelIdeal.Whole

open Idealize.ShloMosaic Idealize.ShloMosaic.TcCoe Idealize.ShloMosaic.StableHlo Idealize.SL.Sem
open Idealize.ShloMosaic.Pipeline (Dat)
open Cert.KernelIdeal Cert.KernelIdeal.Gen Cert.BatchedProduct

/-- The right operand: the centre 3 × 3 × 3 box of offsets and the leading 48 × 48 channels of the stored weights. -/
def weights (x1 : (⟨S125x64x64, .f32⟩ : BufTy).Contents (Elt Ideal)) : (⟨S27x48x48, .f32⟩ : BufTy).Contents (Elt Ideal) :=
  shapeCast _ (extractStridedSlice S3x3x3x48x48 ![1, 1, 1, 0, 0] (shapeCast _ x1 shapeCasts_S125x64x64_S5x5x5x64x64)
    slices_S5x5x5x64x64_S3x3x3x48x48_1_1_1_0_0) shapeCasts_S3x3x3x48x48_S27x48x48

/-- The left operand: the feature rows the input indices name (negative ones wrapped), zeroed where the mask is off. -/
def gathered (x0 : (⟨S200000x48, .f32⟩ : BufTy).Contents (Elt Ideal)) (x2 : (⟨S27x150000, .i32⟩ : BufTy).Contents (Elt Ideal))
    (x4 : (⟨S27x150000, .i1⟩ : BufTy).Contents (Elt Ideal)) : (⟨S27x150000x48, .f32⟩ : BufTy).Contents (Elt Ideal) :=
  select (broadcastInDim S27x150000x48 ![0, 1, 2] bcast_S27x150000x1_S27x150000x48_0_1_2 (broadcastInDim S27x150000x1 ![0, 1] bcast_S27x150000_S27x150000x1_0_1 x4))
    (Host.gather gather_S200000x48_S27x150000x1_S27x150000x48_2_0_n_n_0_2_148 x0 (broadcastInDim S27x150000x1 ![0, 1] bcast_S27x150000_S27x150000x1_0_1 (select (cmpi .slt x2 (broadcastInDim S27x150000 ![] bcast_S_S27x150000 (constantI S_ 32 0#32))) (addi x2 (broadcastInDim S27x150000 ![] bcast_S_S27x150000 (constantI S_ 32 200000#32))) x2)))
    (broadcastInDim S27x150000x48 ![] bcast_S_S27x150000x48 (id (constant (F := Ideal) S_ .f32 0x00000000#32)))

/-- The tail: the rows of a [27, 150000, 48] array added into the rows of a zero [200000, 48] array that the output
    indices name (negative ones wrapped). -/
def scattered (x3 : (⟨S27x150000, .i32⟩ : BufTy).Contents (Elt Ideal)) (p : (⟨S27x150000x48, .f32⟩ : BufTy).Contents (Elt Ideal)) :
    (⟨S200000x48, .f32⟩ : BufTy).Contents (Elt Ideal) :=
  Host.scatterAdd (F := Ideal) scatter_S200000x48_S4050000x1_S4050000x48_1_0_0_1 (broadcastInDim S200000x48 ![] bcast_S_S200000x48 (constant (F := Ideal) S_ .f32 0x00000000#32))
    (broadcastInDim S4050000x1 ![0] bcast_S4050000_S4050000x1_0 (select (cmpi .slt (shapeCast _ x3 shapeCasts_S27x150000_S4050000) (broadcastInDim S4050000 ![] bcast_S_S4050000 (constantI S_ 32 0#32))) (addi (shapeCast _ x3 shapeCasts_S27x150000_S4050000) (broadcastInDim S4050000 ![] bcast_S_S4050000 (constantI S_ 32 200000#32))) (shapeCast _ x3 shapeCasts_S27x150000_S4050000)))
    (shapeCast _ p shapeCasts_S27x150000x48_S4050000x48)

variable (m : (ℓ : Loc nD τ sig) → Buf (Elt Ideal) ℓ)

set_option maxHeartbeats 2000000 in
/-- The left operand array as the region finds it. -/
theorem left_array (c : Dev nD) :
    (V m c main_v12 : (⟨S27x150000x48, .bf16⟩ : BufTy).Contents (Elt Ideal))
      = gathered (m ((c : Thread nD τ).loc main_arg0)) (m ((c : Thread nD τ).loc main_arg2)) (m ((c : Thread nD τ).loc main_arg4)) := by
  dsimp only [V, V0]
  simp only [hostOps0, hostOps0_1, hostOps0_2, List.flatten_cons, List.flatten_nil, List.append_nil, List.cons_append,
    List.nil_append]
  after_results_simp <;> rfl

set_option maxHeartbeats 2000000 in
/-- The right operand array as the region finds it. -/
theorem right_array (c : Dev nD) :
    (V m c main_v13 : (⟨S27x48x48, .bf16⟩ : BufTy).Contents (Elt Ideal))
      = weights (m ((c : Thread nD τ).loc main_arg1)) := by
  dsimp only [V, V0]
  simp only [hostOps0, hostOps0_1, hostOps0_2, List.flatten_cons, List.flatten_nil, List.append_nil, List.cons_append,
    List.nil_append]
  after_results_simp <;> rfl

set_option maxHeartbeats 2000000 in
/-- What the lines after the region leave in the program's result: the scatter-add, by the output indices, of the
    array the region left. The tail reads the output indices from the untouched argument and the product from the
    region's result array; nothing else. -/
theorem tail_result (c : Dev nD) :
    (Pipeline.afterTail₀ cfgs (dats m) 0 (V0 m) [hostOps1] c main_v24 : (⟨S200000x48, .f32⟩ : BufTy).Contents (Elt Ideal))
      = scattered (m ((c : Thread nD τ).loc main_arg3)) ((dats m 0 c).arrAt 2 cfg0.N) := by
  have h3 : Pipeline.withArrays cfg0.spec c (V0 m c) (fun w => (dats m 0 c).arrAt w cfg0.N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  have h14 : Pipeline.withArrays cfg0.spec c (V0 m c) (fun w => (dats m 0 c).arrAt w cfg0.N) (Proc.devRef .tc main_v14)
      = (dats m 0 c).arrAt 2 cfg0.N :=
    Pipeline.withArrays_arr spec0 launch0.win.arr_inj c _ _ 2
  unfold Pipeline.afterTail₀
  show StableHlo.after hostOps1 _ (Proc.devRef .tc main_v24) = _
  after_results_simp
  rw [h3, h14]
  rfl

/-- The kernel's run: every weakly fair execution terminates with the result at the scatter-add of the batched
    product of the gathered rows and the weights, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v24)
        = scattered (m ((c.tc : Thread nD τ).loc main_arg3))
            (batched (gathered (m ((c.tc : Thread nD τ).loc main_arg0)) (m ((c.tc : Thread nD τ).loc main_arg2)) (m ((c.tc : Thread nD τ).loc main_arg4)))
              (weights (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v24 (Pipeline.mem_restRefs_of main_v24 (by decide) (by decide))).trans
        ((tail_result m c).trans (by rw [Blocks.result_array, left_array, right_array])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Whole

end
-- ==== Proof.Bridge.lean ====
/-
  The reference computes the same value.

  The reference builds the same two operands (the gathered, masked feature rows and the sliced weights), contracts
  them in one batched contraction — batch axis 0 of both, axis 2 of the left with axis 1 of the right — and applies the
  same scatter-add. On the extended reals that contraction at (k, m, o) is  ∑ i < 48, left (k, m, i) · right (k, i, o),
  which is the batched product the kernel's tiles assemble; the sums agree term by term, so no property of the
  entries (finiteness included) is used. Everything around the contraction is the same chain of operations on both
  sides.
-/
import proofs.«146788_j21517786153336_2_alg».proof.Proof.Gen.ReferenceIdeal.Read
import proofs.«146788_j21517786153336_2_alg».proof.Proof.KernelRun

set_option maxRecDepth 16384

noncomputable section

namespace Cert.Bridge

open Idealize.ShloMosaic Idealize.ShloMosaic.ValueIdx Cert.BatchedProduct
open Cert.ReferenceIdeal Cert.ReferenceIdeal.Gen

/-- The reference's contraction is the batched product of its two operands. -/
theorem contraction_eq (x0 : (⟨S200000x48, .f32⟩ : BufTy).Contents (Elt Ideal)) (x1 : (⟨S125x64x64, .f32⟩ : BufTy).Contents (Elt Ideal))
    (x2 : (⟨S27x150000, .i32⟩ : BufTy).Contents (Elt Ideal)) (x4 : (⟨S27x150000, .i1⟩ : BufTy).Contents (Elt Ideal)) :
    Read.val_main_v12 (F := Ideal) x0 x1 x2 x4
      = batched (Read.val_main_v11 (F := Ideal) x0 x2 x4) (Read.val_main_v2 (F := Ideal) x1) := by
  funext j
  rw [Read.val_main_v12_apply, batched_apply]
  refine Finset.sum_congr rfl fun i _ => ?_
  have el : Read.lidx_main_v12 j i = ix3 (j 0) (j 1) i := funext fun a => Fin.ext (by
    match a with
    | ⟨0, _⟩ => rfl
    | ⟨1, _⟩ => rfl
    | ⟨2, _⟩ => rfl)
  have er : Read.ridx_main_v12 j i = ix3 (j 0) i (j 2) := funext fun a => Fin.ext (by
    match a with
    | ⟨0, _⟩ => rfl
    | ⟨1, _⟩ => rfl
    | ⟨2, _⟩ => rfl)
  rw [el, er]
  rfl

/-- The reference's result is the scatter-add of the batched product of the gathered rows and the weights: the value
    the kernel's run ends with. -/
theorem reference_eq (x0 : (⟨S200000x48, .f32⟩ : BufTy).Contents (Elt Ideal)) (x1 : (⟨S125x64x64, .f32⟩ : BufTy).Contents (Elt Ideal))
    (x2 x3 : (⟨S27x150000, .i32⟩ : BufTy).Contents (Elt Ideal)) (x4 : (⟨S27x150000, .i1⟩ : BufTy).Contents (Elt Ideal)) :
    Read.val_main_v22 (F := Ideal) x0 x1 x2 x3 x4
      = Cert.KernelIdeal.Whole.scattered x3
          (batched (Cert.KernelIdeal.Whole.gathered x0 x2 x4) (Cert.KernelIdeal.Whole.weights x1)) := by
  unfold Read.val_main_v22 Read.val_main_v15
  rw [contraction_eq]
  rfl

end Cert.Bridge

end
-- ==== Proof.lean ====
/-
  The kernel and its reference compute the same sparse convolution step, and the proof of `Cert.Claim` says why.

  Both programs take the stored weights' centre 3 × 3 × 3 box on 48 × 48 channels (27 matrices), gather for each of
  the 27 offsets and 150000 pairs the feature row the input index names (zero where the mask is off), multiply row
  (k, m) by matrix k, and add the product row into the output row the output index names. They differ in one place:
  the kernel converts both operands to a narrower float format and multiplies them on the matrix unit tile by tile
  (27 × 6 tiles of 25000 rows, each into a zero accumulator), while the reference contracts them in one batched
  contraction. On the extended reals a format change is the identity and both products are, at (k, m, o), the sum
  over the 48 channels i of  gathered (k, m, i) · weights (k, i, o)  — the same terms in the same sum, so the
  precondition is never opened.

  The modules: Spec (the batched product as one function), Tile (one tile of the kernel's output), Blocks (the tiles
  cover the array: the region's result is the batched product of its operand arrays), KernelRun (the host lines
  before and after the region; the kernel's run read as one value), Bridge (the reference's contraction is the batched
  product, and the rest of its chain is the kernel's). The three frames are the generated runs; the idealization
  rewrote nothing, so the kernel and its idealization are one text.
-/
import proofs.«146788_j21517786153336_2_alg».proof.Defs
import proofs.«146788_j21517786153336_2_alg».proof.Proof.Gen.Kernel
import proofs.«146788_j21517786153336_2_alg».proof.Proof.Gen.Kernel.Skeleton
import proofs.«146788_j21517786153336_2_alg».proof.Proof.Gen.Kernel.Launch
import proofs.«146788_j21517786153336_2_alg».proof.Proof.Gen.Kernel.Points
import proofs.«146788_j21517786153336_2_alg».proof.Proof.Gen.Kernel.Frame
import proofs.«146788_j21517786153336_2_alg».proof.Proof.Gen.KernelIdeal
import proofs.«146788_j21517786153336_2_alg».proof.Proof.Gen.KernelIdeal.Skeleton
import proofs.«146788_j21517786153336_2_alg».proof.Proof.Gen.KernelIdeal.Launch
import proofs.«146788_j21517786153336_2_alg».proof.Proof.Gen.KernelIdeal.Points
import proofs.«146788_j21517786153336_2_alg».proof.Proof.Gen.KernelIdeal.Frame
import proofs.«146788_j21517786153336_2_alg».proof.Proof.Gen.ReferenceIdeal
import proofs.«146788_j21517786153336_2_alg».proof.Proof.Gen.ReferenceIdeal.Run
import proofs.«146788_j21517786153336_2_alg».proof.Proof.Gen.ReferenceIdeal.Read
import proofs.«146788_j21517786153336_2_alg».proof.Proof.Gen.Pre_finite_inputs
import proofs.«146788_j21517786153336_2_alg».proof.Proof.KernelRun
import proofs.«146788_j21517786153336_2_alg».proof.Proof.Bridge
import Idealize.ShloMosaic.Adequacy
import Idealize.ShloMosaic.Init

noncomputable section

namespace Cert.Proof

open Idealize.ShloMosaic Idealize.SL.Sem

/-- The word-level kernel runs and leaves its arguments alone: its generated frame. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- The reference is a straight line of host operations: its generated run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel ends at the scatter-add of the batched product of the
    gathered rows and the weights (its run, read), and the reference at its own chain's term, which is that value. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v22_eq _ _ _ _ _).trans (Cert.Bridge.reference_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
